-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x256 .f32) (main_arg1 : FVec F S1024x256 .f32) (main_arg2 : FVec F S1024 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩
abbrev S128x256 : Shape := ⟨2, ![128, 256]⟩
abbrev S128x1024 : Shape := ⟨2, ![128, 1024]⟩
abbrev S128 : Shape := ⟨1, ![128]⟩
abbrev S128x1 : Shape := ⟨2, ![128, 1]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1x1024, .f32⟩
  | .hbm, ⟨4, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S1024x256, .f32⟩
  | .local _ .vmem, ⟨3, _⟩ => ⟨S1x1024, .f32⟩
  | .local _ .vmem, ⟨4, _⟩ => ⟨S128x1024, .f32⟩
  | .local _ .vmem, ⟨5, _⟩ => ⟨S128x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S128x256_S128x256_0_0 : ∀ a, (![0, 0] : Fin 2 → Nat) a + S128x256.size a ≤ S128x256.size a
  h_S128x256 : 0 < S128x256.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S128x256_S128 : S128x256.Reduces [1] S128
  shapeCasts_S128_S128x1 : S128.ShapeCasts S128x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S128x1_S128x1024 : S128x1.Broadcasts S128x1024
  broadcasts_S1x1024_S128x1024 : S1x1024.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S128x1024_S128x1024_0_0 : ∀ a, (![0, 0] : Fin 2 → Nat) a + S128x1024.size a ≤ S128x1024.size a
  h_S128x1024 : 0 < S128x1024.numel
  dot_S128x256_S1024x256_S128x1024_1_1_0_0_n_n_wf : DotDims.WF S128x256 S1024x256 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .f32 = 32 ∨ (Rect.block (s := S1024x1024) S128x1024.size (cc0_transform_3 i) (hinb0_3 i)).WholeWords (EltTy.packing .f32)

variable [Facts₀]

def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .f32⟩
  | .hbm, ⟨3, _⟩ => ⟨S1024x1x256, .f32⟩
  | .hbm, ⟨4, _⟩ => ⟨S1x1024x256, .f32⟩
  | .hbm, ⟨5, _⟩ => ⟨S1024x1024x256, .f32⟩
  | .hbm, ⟨6, _⟩ => ⟨S1024x1024x256, .f32⟩
  | .hbm, ⟨7, _⟩ => ⟨S1024x1024x256, .f32⟩
  | .hbm, ⟨8, _⟩ => ⟨S1024x1024x256, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)

variable [Facts₀]

class Facts : Prop extends Facts₀ where

variable [Facts]
-- ==== Proof.Consts.lean ====
/-
  The float literals the two programs spell, read as the extended reals their IEEE patterns denote:
  2, -2, -1/2 and +∞ (the zero pattern the library already reads as 0).
-/
import Idealize.ShloMosaic.PureOps.Ideal
import Idealize.ShloMosaic.PureOps.Ideal.Laws

noncomputable section

namespace Cert.Proof.Consts

open Idealize.ShloMosaic

/-- The pattern of `2.0`: sign 0, exponent 128, fraction 0, so 2^23 · 2^(128 - 127 - 23) = 2. -/
theorem ofBits_two : Ideal.ofBits .f32 0x40000000#32 = ((2 : ℝ) : EReal) := by
  simp [Ideal.ofBits, Ideal.ieee, -EReal.coe_mul]; norm_num

/-- The pattern of `-2.0`: the same with the sign bit set. -/
theorem ofBits_neg_two : Ideal.ofBits .f32 0xC0000000#32 = ((-2 : ℝ) : EReal) := by
  simp [Ideal.ofBits, Ideal.ieee, -EReal.coe_mul]; norm_num

/-- The pattern with sign 0, exponent all ones and fraction 0 is `+∞`: the bound the precondition compares against. -/
theorem ofBits_inf : Ideal.ofBits .f32 0x7F800000#32 = (⊤ : EReal) := by
  simp [Ideal.ofBits, Ideal.ieee]

/-- The pattern of `-0.5`: sign 1, exponent 126, fraction 0, so -(2^23 · 2^(126 - 127 - 23)) = -1/2. -/
theorem ofBits_neg_half : Ideal.ofBits .f32 0xBF000000#32 = ((-(1 / 2) : ℝ) : EReal) := by
  simp [Ideal.ofBits, Ideal.ieee, -EReal.coe_mul]; norm_num

end Cert.Proof.Consts

end
-- ==== Proof.FiniteInputs.lean ====
/-
  The precondition `finite_inputs` read back at the extended reals.

  For each of the three float arrays the precondition computes `jnp.all(|x| < +∞)`: the absolute value of every
  entry, compared (ordered, strictly less) with a broadcast of the f32 constant whose word is 0x7F800000, and the
  conjunction of all those comparisons; the three results are then conjoined. Over the extended reals the word
  0x7F800000 denotes `⊤`, the absolute value of `x` is `max x (-x)`, and `max x (-x) < ⊤` fails exactly at
  `x = ⊤` (where `max` is `⊤`) and at `x = ⊥` (where `-x = ⊤`). So a precondition that evaluates to 1 says that
  every entry of every input is a real number.
-/
import proofs.«121668_j4647154614792_2_alg».proof.Pre_finite_inputs
import Idealize.ShloMosaic.PureOps.Ideal
import Idealize.ShloMosaic.PureOps.Ideal.Laws
import Idealize.ShloMosaic.Lib.ReduceAll
import Idealize.ShloMosaic.Lib.ValueIdx
import proofs.«121668_j4647154614792_2_alg».proof.Proof.Consts

noncomputable section

namespace Cert.Proof.FiniteInputs

open Idealize.ShloMosaic

/-- An extended real whose absolute value `max x (-x)` is strictly below `⊤` is a real number: at `⊥` the negation
    is `⊤`, at `⊤` the value itself is, and `⊤ < ⊤` is false. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The result shape of a reduction over all axes has exactly one index. -/
instance : Subsingleton Cert.Pre_finite_inputs.S_.Idx := ⟨fun a b => funext fun d => d.elim0⟩

/-- One entry of the compared array: if `|x| < +∞` holds at index `i` (the right-hand side a broadcast of the
    constant 0x7F800000), then `x i` is a real number. -/
theorem real_of_elem {s : Shape} (dims : Fin Cert.Pre_finite_inputs.S_.rank → Fin s.rank)
    (hb : Cert.Pre_finite_inputs.S_.BroadcastsInDim s dims) (x : FVec Ideal s .f32) (i : s.Idx)
    (h : cmpf .olt (Host.absf x)
          (broadcastInDim s dims hb (constant Cert.Pre_finite_inputs.S_ .f32 0x7F800000#32)) i = 1#1) :
    ∃ r : ℝ, x i = (r : EReal) := by
  apply real_of_abs_lt_top
  rw [← Cert.Proof.Consts.ofBits_inf]
  exact h

/-- The precondition evaluating to 1 makes every entry of the three inputs a real number. -/
theorem real_of_pre [Cert.Pre_finite_inputs.Facts]
    (x0 x1 : FVec Ideal (⟨2, ![1024, 256]⟩ : Shape) .f32) (x2 : FVec Ideal (⟨1, ![1024]⟩ : Shape) .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the one index of the rank-0 result
  have h0 := congrFun h ValueIdx.ix0
  dsimp only [Cert.Pre_finite_inputs.fn] at h0
  -- the result is the conjunction of the three `jnp.all`s
  obtain ⟨h01, ha2⟩ := IntOp.andi_eq_one.1 h0
  obtain ⟨ha0, ha1⟩ := IntOp.andi_eq_one.1 h01
  -- each `jnp.all` that is 1 is 1 at every index, and there it says the entry is real
  exact ⟨fun i => real_of_elem _ _ x0 i (Host.reduce_andi_all _ _ _ _ _ ha0 i),
         fun i => real_of_elem _ _ x1 i (Host.reduce_andi_all _ _ _ _ _ ha1 i),
         fun i => real_of_elem _ _ x2 i (Host.reduce_andi_all _ _ _ _ _ ha2 i)⟩

end Cert.Proof.FiniteInputs

end
-- ==== Proof.Spec.lean ====
/-
  The mathematics of the certificate, with no program in sight.

  For rows x_i, c_j of length 256 and a log-width l_j the kernel evaluates
      exp( max(|x_i|² + |c_j|² - 2 ⟨x_i, c_j⟩, 0) · (-1/2 · exp(-2 l_j)) )
  and the reference
      exp( (-1/2 · d) · d ),   d = sqrt(0 + Σ_k (x_ik - c_jk)²) / exp(l_j).
  Over the reals these agree: the square expands, Σ_k (x_ik - c_jk)² = |x_i|² + |c_j|² - 2⟨x_i, c_j⟩, which is a sum
  of squares and so non-negative (the maximum with 0 does nothing, and the root squares back), and
  (1 / exp l)² = exp(-2 l).  The expansion of the square moves a factor across a sum, which is false at the
  infinities of the extended reals, so the law is stated for real entries.
-/
import Idealize.ShloMosaic.PureOps.Ideal
import Idealize.ShloMosaic.PureOps.Ideal.Laws
import Idealize.ShloMosaic.Lib.ValueIdx
import proofs.«121668_j4647154614792_2_alg».proof.Proof.Consts

noncomputable section

namespace Cert.Proof.Rbf

open Idealize.ShloMosaic Idealize.ShloMosaic.ValueIdx

/-- The kernel's combination of the two squared norms `A`, `B`, the inner product `P` and the log-width `l`. -/
def kcomb (A B P l : EReal) : EReal :=
  Ideal.exp (max ((A + B) - Ideal.ofBits .f32 0x40000000#32 * P) (Ideal.ofBits .f32 0x00000000#32)
    * (Ideal.ofBits .f32 0xBF000000#32 * Ideal.exp (Ideal.ofBits .f32 0xC0000000#32 * l)))

/-- The reference's combination of the squared distance `S` and the log-width `l`. -/
def rcomb (S l : EReal) : EReal :=
  Ideal.exp ((Ideal.ofBits .f32 0xBF000000#32
      * Ideal.div (Ideal.sqrt (Ideal.ofBits .f32 0x00000000#32 + S)) (Ideal.exp l))
    * Ideal.div (Ideal.sqrt (Ideal.ofBits .f32 0x00000000#32 + S)) (Ideal.exp l))

/-- The coercion of the reals into the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The kernel's combination at real arguments whose squared distance `S = A + B - 2P` is non-negative. -/
theorem kcomb_coe (A B P l S : ℝ) (hS : S = A + B - 2 * P) (hnn : 0 ≤ S) :
    kcomb (A : EReal) (B : EReal) (P : EReal) (l : EReal)
      = ((Real.exp (S * (-(1 / 2) * Real.exp (-2 * l))) : ℝ) : EReal) := by
  unfold kcomb
  rw [Ideal.ofBits_zero_f32, Consts.ofBits_two, Consts.ofBits_neg_two, Consts.ofBits_neg_half]
  simp only [← EReal.coe_mul, ← EReal.coe_add, ← EReal.coe_sub, Ideal.exp_coe]
  rw [← hS, max_eq_left (EReal.coe_nonneg.mpr hnn)]
  simp only [← EReal.coe_mul, Ideal.exp_coe]

/-- The reference's combination at a non-negative real squared distance. -/
theorem rcomb_coe (S l : ℝ) (hnn : 0 ≤ S) :
    rcomb (S : EReal) (l : EReal)
      = ((Real.exp ((-(1 / 2) * (Real.sqrt S * (1 / Real.exp l))) * (Real.sqrt S * (1 / Real.exp l))) : ℝ) : EReal) := by
  unfold rcomb
  rw [Ideal.ofBits_zero_f32, Consts.ofBits_neg_half, zero_add, Ideal.sqrt_coe, if_neg (not_lt.mpr hnn), Ideal.exp_coe,
    Ideal.div_coe (Real.exp_ne_zero l)]
  simp only [← EReal.coe_mul, Ideal.exp_coe]

/-- THE LAW: on real rows the reference's combination of the squared distance is the kernel's combination of the
    norms and the inner product. -/
theorem comb_eq {ι : Type} [Fintype ι] (x c : ι → ℝ) (l : ℝ) :
    rcomb (∑ k, ((x k : EReal) - (c k : EReal)) * ((x k : EReal) - (c k : EReal))) (l : EReal)
      = kcomb (∑ k, (x k : EReal) * (x k : EReal)) (∑ k, (c k : EReal) * (c k : EReal))
          (∑ k, (x k : EReal) * (c k : EReal)) (l : EReal) := by
  have hS : (∑ k, ((x k : EReal) - (c k : EReal)) * ((x k : EReal) - (c k : EReal)))
      = ((∑ k, (x k - c k) * (x k - c k) : ℝ) : EReal) := by
    rw [coe_sum]; exact Finset.sum_congr rfl fun k _ => by rw [EReal.coe_mul, EReal.coe_sub]
  have hA : (∑ k, (x k : EReal) * (x k : EReal)) = ((∑ k, x k * x k : ℝ) : EReal) := by
    rw [coe_sum]; exact Finset.sum_congr rfl fun k _ => by rw [EReal.coe_mul]
  have hB : (∑ k, (c k : EReal) * (c k : EReal)) = ((∑ k, c k * c k : ℝ) : EReal) := by
    rw [coe_sum]; exact Finset.sum_congr rfl fun k _ => by rw [EReal.coe_mul]
  have hP : (∑ k, (x k : EReal) * (c k : EReal)) = ((∑ k, x k * c k : ℝ) : EReal) := by
    rw [coe_sum]; exact Finset.sum_congr rfl fun k _ => by rw [EReal.coe_mul]
  have hnn : 0 ≤ ∑ k, (x k - c k) * (x k - c k) := Finset.sum_nonneg fun k _ => mul_self_nonneg _
  have hexp : (∑ k, (x k - c k) * (x k - c k)) = (∑ k, x k * x k) + (∑ k, c k * c k) - 2 * ∑ k, x k * c k := by
    rw [Finset.mul_sum, ← Finset.sum_add_distrib, ← Finset.sum_sub_distrib]
    exact Finset.sum_congr rfl fun k _ => by ring
  rw [hS, hA, hB, hP, rcomb_coe _ _ hnn, kcomb_coe _ _ _ _ _ hexp hnn]
  refine congrArg (fun r : ℝ => (r : EReal)) (congrArg Real.exp ?_)
  have hs : Real.sqrt (∑ k, (x k - c k) * (x k - c k)) * Real.sqrt (∑ k, (x k - c k) * (x k - c k))
      = ∑ k, (x k - c k) * (x k - c k) := Real.mul_self_sqrt hnn
  have he : Real.exp (-2 * l) = (1 / Real.exp l) * (1 / Real.exp l) := by
    rw [show -2 * l = -l + -l by ring, Real.exp_add, Real.exp_neg, one_div]
  calc (-(1 / 2) * (Real.sqrt (∑ k, (x k - c k) * (x k - c k)) * (1 / Real.exp l)))
        * (Real.sqrt (∑ k, (x k - c k) * (x k - c k)) * (1 / Real.exp l))
      = (Real.sqrt (∑ k, (x k - c k) * (x k - c k)) * Real.sqrt (∑ k, (x k - c k) * (x k - c k)))
          * (-(1 / 2) * ((1 / Real.exp l) * (1 / Real.exp l))) := by ring
    _ = (∑ k, (x k - c k) * (x k - c k)) * (-(1 / 2) * Real.exp (-2 * l)) := by rw [hs, he]

/-! ## The two programs' results as functions of the whole argument arrays -/

/-- A 1024 × 256 array of extended reals, and a vector of 1024. -/
abbrev Mat := (⟨2, ![1024, 256]⟩ : Shape).Idx → EReal
abbrev Row := (⟨1, ![1024]⟩ : Shape).Idx → EReal

/-- Entry (i, j) in the kernel's arrangement: norms of row i of `X` and row j of `C`, their inner product, width j. -/
def G (X C : Mat) (L : Row) : (⟨2, ![1024, 1024]⟩ : Shape).Idx → EReal := fun i =>
  kcomb (∑ k : Fin 256, X (ix2 (i 0 : Fin 1024) k) * X (ix2 (i 0 : Fin 1024) k))
    (∑ k : Fin 256, C (ix2 (i 1 : Fin 1024) k) * C (ix2 (i 1 : Fin 1024) k))
    (∑ k : Fin 256, X (ix2 (i 0 : Fin 1024) k) * C (ix2 (i 1 : Fin 1024) k)) (L (ix1 (i 1 : Fin 1024)))

/-- Entry (i, j) in the reference's arrangement: the squared distance of row i of `X` from row j of `C`, width j. -/
def R (X C : Mat) (L : Row) : (⟨2, ![1024, 1024]⟩ : Shape).Idx → EReal := fun i =>
  rcomb (∑ k : Fin 256, (X (ix2 (i 0 : Fin 1024) k) - C (ix2 (i 1 : Fin 1024) k))
      * (X (ix2 (i 0 : Fin 1024) k) - C (ix2 (i 1 : Fin 1024) k))) (L (ix1 (i 1 : Fin 1024)))

/-- On arrays of real entries the two arrangements are one function. -/
theorem R_eq_G (X C : Mat) (L : Row) (hX : ∀ i, ∃ r : ℝ, X i = (r : EReal)) (hC : ∀ i, ∃ r : ℝ, C i = (r : EReal))
    (hL : ∀ i, ∃ r : ℝ, L i = (r : EReal)) : R X C L = G X C L := by
  funext i
  choose x hx using hX
  choose c hc using hC
  choose l hl using hL
  unfold R G
  simp only [hx, hc, hl]
  exact comb_eq (fun k : Fin 256 => x (ix2 (i 0 : Fin 1024) k)) (fun k : Fin 256 => c (ix2 (i 1 : Fin 1024) k))
    (l (ix1 (i 1 : Fin 1024)))

end Cert.Proof.Rbf

end
-- ==== Proof.RefValue.lean ====
/-
  The reference program's result, read index by index, is the function `R` of the specification.

  The reference broadcasts the rows of `X` along a new middle axis and the rows of `C` along a new leading axis,
  subtracts, squares, and sums over the last axis from 0: entry (i, j) of that sum is 0 + Σ_k (X_ik - C_jk)².
  It takes the square root, divides by exp(L_j) broadcast along the rows, multiplies by -1/2 and by the quotient
  once more, and exponentiates.  Every step is elementwise or a relabelling of indices, so reading the result at
  (i, j) only needs to follow which entry of X, C and L each broadcast reads: X at (i, k), C at (j, k), L at j.
  Nothing here depends on the entries being finite.
-/
import proofs.«121668_j4647154614792_2_alg».proof.Proof.Gen.ReferenceIdeal.Read
import proofs.«121668_j4647154614792_2_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-! ## Which entry of an argument a composed broadcast reads -/

/-- Entry (i, j, k) of `X` broadcast to 1024 × 1024 × 256 (through 1024 × 1 × 256) is `X` at (i, k). -/
theorem idx_x (i : S1024x1024.Idx) (k : Fin 256) :
    idx_main_v0 (idx_main_v2 (idx_main_v6 i k)) = ix2 (i 0 : Fin 1024) k :=
  funext fun a => Fin.ext (by match a with | ⟨0, _⟩ => rfl | ⟨1, _⟩ => rfl)

/-- Entry (i, j, k) of `C` broadcast to 1024 × 1024 × 256 (through 1 × 1024 × 256) is `C` at (j, k). -/
theorem idx_c (i : S1024x1024.Idx) (k : Fin 256) :
    idx_main_v1 (idx_main_v3 (idx_main_v6 i k)) = ix2 (i 1 : Fin 1024) k :=
  funext fun a => Fin.ext (by match a with | ⟨0, _⟩ => rfl | ⟨1, _⟩ => rfl)

/-- Entry (i, j) of a vector of 1024 broadcast to 1024 × 1024 (through 1 × 1024) is the vector at j. -/
theorem idx_l (i : S1024x1024.Idx) :
    idx_main_v9 (idx_main_v10 i) = ix1 (i 1 : Fin 1024) :=
  funext fun a => Fin.ext (by match a with | ⟨0, _⟩ => rfl)

/-! ## The stages at an index -/

/-- The squared difference at (i, j, k): (X_ik - C_jk)². -/
theorem sq_at (X C : (⟨S1024x256, .f32⟩ : BufTy).Contents (Elt Ideal)) (i : S1024x1024.Idx) (k : Fin 256) :
    val_main_v5 (F := Ideal) X C (idx_main_v6 i k)
      = (X (ix2 (i 0 : Fin 1024) k) - C (ix2 (i 1 : Fin 1024) k))
        * (X (ix2 (i 0 : Fin 1024) k) - C (ix2 (i 1 : Fin 1024) k)) := by
  rw [val_main_v5_apply, val_main_v4_apply, val_main_v2_apply, val_main_v0_apply, val_main_v3_apply,
    val_main_v1_apply, idx_x, idx_c]
  rfl

/-- The sum over the last axis at (i, j): 0 + Σ_k (X_ik - C_jk)², the zero still spelt as its f32 word. -/
theorem sum_at (X C : (⟨S1024x256, .f32⟩ : BufTy).Contents (Elt Ideal)) (i : S1024x1024.Idx) :
    val_main_v6 (F := Ideal) X C i
      = Ideal.ofBits .f32 0x00000000#32
        + ∑ k : Fin 256, (X (ix2 (i 0 : Fin 1024) k) - C (ix2 (i 1 : Fin 1024) k))
            * (X (ix2 (i 0 : Fin 1024) k) - C (ix2 (i 1 : Fin 1024) k)) := by
  rw [val_main_v6_apply, val_main_cst_apply]
  exact congrArg (Ideal.ofBits .f32 0x00000000#32 + ·) (Finset.sum_congr rfl fun k _ => sq_at X C i k)

/-- The broadcast width at (i, j): exp(L_j). -/
theorem width_at (L : (⟨S1024, .f32⟩ : BufTy).Contents (Elt Ideal)) (i : S1024x1024.Idx) :
    val_main_v10 (F := Ideal) L i = Ideal.exp (L (ix1 (i 1 : Fin 1024))) := by
  rw [val_main_v10_apply, val_main_v9_apply, val_main_v8_apply, idx_l]
  rfl

/-- The scaled distance at (i, j): sqrt(0 + Σ_k (X_ik - C_jk)²) / exp(L_j). -/
theorem quot_at (X C : (⟨S1024x256, .f32⟩ : BufTy).Contents (Elt Ideal)) (L : (⟨S1024, .f32⟩ : BufTy).Contents (Elt Ideal))
    (i : S1024x1024.Idx) :
    val_main_v11 (F := Ideal) X C L i
      = Ideal.div (Ideal.sqrt (Ideal.ofBits .f32 0x00000000#32
          + ∑ k : Fin 256, (X (ix2 (i 0 : Fin 1024) k) - C (ix2 (i 1 : Fin 1024) k))
              * (X (ix2 (i 0 : Fin 1024) k) - C (ix2 (i 1 : Fin 1024) k))))
          (Ideal.exp (L (ix1 (i 1 : Fin 1024)))) := by
  rw [val_main_v11_apply, val_main_v7_apply, sum_at, width_at]
  rfl

/-! ## The result -/

/-- The reference's result stage is `R`: at (i, j), exp((-1/2 · d) · d) for d the scaled distance above. -/
theorem val_eq_R (X C : (⟨S1024x256, .f32⟩ : BufTy).Contents (Elt Ideal)) (L : (⟨S1024, .f32⟩ : BufTy).Contents (Elt Ideal)) :
    val_main_v15 (F := Ideal) X C L = Cert.Proof.Rbf.R X C L := by
  funext i
  rw [val_main_v15_apply, val_main_v14_apply, val_main_v13_apply, val_main_v12_apply, val_main_cst_0_apply, quot_at]
  rfl

end Cert.ReferenceIdeal.RefValue

end
-- ==== Proof.Payload.lean ====
/-
  The kernel body's arithmetic, read at one entry of the 128 × 1024 output block.

  From a 128 × 256 block `x0` of the first array, the whole 1024 × 256 second array `x1` and the 1 × 1024 row `x2` of
  log-widths, entry (p, q) of the body's result is the combination `kcomb` of
    the squared norm of row p of `x0`   (a sum along the lanes, kept as a column and broadcast across the row),
    the squared norm of row q of `x1`   (a sum along the lanes, kept as a column, transposed to a row and broadcast down),
    the inner product of the two rows    (the block product contracted over both operands' last axis), and
    the log-width `x2 (0, q)`           (the row broadcast down the block).
  The changes of float format around the block product are the identity on extended reals.
-/
import proofs.«121668_j4647154614792_2_alg».proof.Proof.Gen.KernelIdeal.Skeleton
import proofs.«121668_j4647154614792_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The exponential of a vector is the exponential of each entry. -/
theorem exp_apply {s : Shape} {φ : FTy} (a : FVec Ideal s φ) (i : s.Idx) : exp a i = Ideal.exp (a i) := rfl

/-! ## The layout operations between the lane sums and the block -/

/-- A vector of 128 kept as a 128 × 1 column and broadcast across 1024 lanes reads, at (p, q), its entry p. -/
theorem column_across (v : FVec Ideal S128 .f32) (p : Fin 128) (q : Fin 1024) :
    broadcastTo S128x1024 (shapeCast S128x1 v shapeCasts_S128_S128x1) broadcasts_S128x1_S128x1024 (ix2 p q) = v (ix1 p) := by
  refine (broadcastTo_apply _ broadcasts_S128x1_S128x1024 (ix2 p q) (ix2 p (0 : Fin 1)) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
  · refine shapeCast_apply v shapeCasts_S128_S128x1 (ix2 p (0 : Fin 1)) (ix1 p) ?_
    rw [Shape.rowMajor_val_one, Shape.rowMajor_val_two]
    show p.val = p.val * 1 + 0
    omega

/-- A vector of 1024 kept as a 1024 × 1 column, transposed to a 1 × 1024 row and broadcast down 128 rows reads, at
    (p, q), its entry q. -/
theorem column_down (v : FVec Ideal S1024 .f32) (p : Fin 128) (q : Fin 1024) :
    broadcastTo S128x1024 (transpose S1x1024 [1, 0] (shapeCast S1024x1 v shapeCasts_S1024_S1024x1) transposes_S1024x1_p1_0_S1x1024)
      broadcasts_S1x1024_S128x1024 (ix2 p q) = v (ix1 q) := by
  refine (broadcastTo_1b_ab_apply _ broadcasts_S1x1024_S128x1024 p q).trans ?_
  refine (transpose_ix2_apply _ transposes_S1024x1_p1_0_S1x1024 (0 : Fin 1) q).trans ?_
  refine shapeCast_apply v shapeCasts_S1024_S1024x1 (ix2 q (0 : Fin 1)) (ix1 q) ?_
  rw [Shape.rowMajor_val_one, Shape.rowMajor_val_two]
  show q.val = q.val * 1 + 0
  omega

/-! ## The lane sums and the block product -/

/-- The sum along the lanes of a 128 × 256 block, at row p. -/
theorem lane_sum_128 (v : FVec Ideal S128x256 .f32) (p : Fin 128) :
    multiReduction .add [1] S128 v 0x00000000#32 reduces_S128x256_S128 (.inl rfl) rfl (ix1 p) = ∑ k : Fin 256, v (ix2 p k) := by
  refine (Ideal.multiReduction_add_single v 0x00000000#32 reduces_S128x256_S128 (.inl rfl) rfl (ix1 p)).trans ?_
  exact Finset.sum_congr rfl fun k _ => congrArg v (funext fun a => Fin.ext (by match a with | ⟨0, _⟩ => rfl | ⟨1, _⟩ => rfl))

/-- The sum along the lanes of a 1024 × 256 array, at row q. -/
theorem lane_sum_1024 (v : FVec Ideal S1024x256 .f32) (q : Fin 1024) :
    multiReduction .add [1] S1024 v 0x00000000#32 reduces_S1024x256_S1024 (.inl rfl) rfl (ix1 q) = ∑ k : Fin 256, v (ix2 q k) := by
  refine (Ideal.multiReduction_add_single v 0x00000000#32 reduces_S1024x256_S1024 (.inl rfl) rfl (ix1 q)).trans ?_
  exact Finset.sum_congr rfl fun k _ => congrArg v (funext fun a => Fin.ext (by match a with | ⟨0, _⟩ => rfl | ⟨1, _⟩ => rfl))

/-- The block product into the zero accumulator, both operands contracted over their last axis: entry (p, q) is the
    inner product of row p of the left operand with row q of the right one. -/
theorem block_product (a : FVec Ideal S128x256 .bf16) (b : FVec Ideal S1024x256 .bf16) (p : Fin 128) (q : Fin 1024) :
    matmul dot_S128x256_S1024x256_S128x1024_1_1_0_0_n_n none a b (constant (F := Ideal) S128x1024 .f32 0x00000000#32) (ix2 p q)
      = ∑ k : Fin 256, a (ix2 p k) * b (ix2 q k) := by
  refine (Ideal.matmul_constant_zero_apply dot_S128x256_S1024x256_S128x1024_1_1_0_0_n_n none a b (ix2 p q)).trans ?_
  refine (Equiv.sum_comp (contrEquiv1 dot_S128x256_S1024x256_S128x1024_1_1_0_0_n_n 256 rfl rfl).symm _).symm.trans ?_
  refine Finset.sum_congr rfl fun k _ => ?_
  have hl : dot_S128x256_S1024x256_S128x1024_1_1_0_0_n_n.lhsIdx (ix2 p q)
      ((contrEquiv1 dot_S128x256_S1024x256_S128x1024_1_1_0_0_n_n 256 rfl rfl).symm k) = ix2 p k := by
    funext ax; apply Fin.ext
    match ax with
    | ⟨0, _⟩ => rfl
    | ⟨1, _⟩ =>
      exact (DotDims.lhsIdx_val_of_single dot_S128x256_S1024x256_S128x1024_1_1_0_0_n_n rfl _ _).trans
        (contrEquiv1_symm_val dot_S128x256_S1024x256_S128x1024_1_1_0_0_n_n 256 rfl rfl k)
  have hr : dot_S128x256_S1024x256_S128x1024_1_1_0_0_n_n.rhsIdx (ix2 p q)
      ((contrEquiv1 dot_S128x256_S1024x256_S128x1024_1_1_0_0_n_n 256 rfl rfl).symm k) = ix2 q k := by
    funext ax; apply Fin.ext
    match ax with
    | ⟨0, _⟩ => rfl
    | ⟨1, _⟩ =>
      exact (DotDims.rhsIdx_val_of_single dot_S128x256_S1024x256_S128x1024_1_1_0_0_n_n rfl _ _).trans
        (contrEquiv1_symm_val dot_S128x256_S1024x256_S128x1024_1_1_0_0_n_n 256 rfl rfl k)
  rw [hl, hr]

/-! ## The payload -/

/-- Entry (p, q) of the body's result. -/
theorem pay_at (x0 : Vec Ideal S128x256 .f32) (x1 : Vec Ideal S1024x256 .f32) (x2 : Vec Ideal S1x1024 .f32)
    (p : Fin 128) (q : Fin 1024) :
    k0_pay1 x0 x1 x2 (ix2 p q)
      = Cert.Proof.Rbf.kcomb (∑ k : Fin 256, x0 (ix2 p k) * x0 (ix2 p k)) (∑ k : Fin 256, x1 (ix2 q k) * x1 (ix2 q k))
          (∑ k : Fin 256, x0 (ix2 p k) * x1 (ix2 q k)) (x2 (ix2 (0 : Fin 1) q)) := by
  unfold k0_pay1 Cert.Proof.Rbf.kcomb
  simp only [exp_apply, mulf_apply, maximumf_apply, subf_apply, addf_apply, broadcast_apply]
  -- the four non-pointwise ingredients, one by one, under the pointwise combination
  refine congrArg Ideal.exp (congrArg₂ (· * ·) (congrArg (fun z => max z _)
    (congrArg₂ (· - ·) (congrArg₂ (· + ·) ?_ ?_) (congrArg (fun z => _ * z) ?_))) ?_)
  · exact (column_across _ p q).trans (lane_sum_128 (mulf x0 x0) p)
  · exact (column_down _ p q).trans (lane_sum_1024 (mulf x1 x1) q)
  · exact block_product (truncf .bf16 x0 bitsLt_bf16_f32) (truncf .bf16 x1 bitsLt_bf16_f32) p q
  · refine (broadcastTo_1b_ab_apply _ broadcasts_S1x1024_S128x1024 p q).trans ?_
    simp only [mulf_apply, exp_apply, broadcast_apply, shapeCast_self, Ideal.ofBits_def]

/-- The same at any index of the block, written through its two coordinates. -/
theorem pay_idx (x0 : Vec Ideal S128x256 .f32) (x1 : Vec Ideal S1024x256 .f32) (x2 : Vec Ideal S1x1024 .f32)
    (j : S128x1024.Idx) :
    k0_pay1 x0 x1 x2 j
      = Cert.Proof.Rbf.kcomb (∑ k : Fin 256, x0 (ix2 (j 0 : Fin 128) k) * x0 (ix2 (j 0 : Fin 128) k))
          (∑ k : Fin 256, x1 (ix2 (j 1 : Fin 1024) k) * x1 (ix2 (j 1 : Fin 1024) k))
          (∑ k : Fin 256, x0 (ix2 (j 0 : Fin 128) k) * x1 (ix2 (j 1 : Fin 1024) k)) (x2 (ix2 (0 : Fin 1) (j 1 : Fin 1024))) := by
  obtain ⟨p, q, rfl⟩ : ∃ (p : Fin 128) (q : Fin 1024), j = ix2 p q := ⟨j 0, j 1, eq_ix2 j⟩
  exact pay_at x0 x1 x2 p q

end Cert.KernelIdeal.Payload

end
-- ==== Proof.KernelValue.lean ====
/-
  From the kernel's blocks to its whole output array.

  The kernel computes the 1024 × 1024 output in eight steps.  At step t (t = 0 … 7) it holds a block of 128 rows of
  the first argument — rows 128 t … 128 t + 127 —, the whole second argument, and the whole row of log-widths (the
  third argument, a vector of 1024, relabelled as a 1 × 1024 row before the steps begin), and it writes the
  128 × 1024 block of the output made of rows 128 t … 128 t + 127 and every column.

  Entry (p, q) of the block written at step t is the combination `kcomb` of the squared norm of row p of the block
  of the first argument, the squared norm of row q of the second argument, their inner product, and the log-width q.
  Row p of that block is row 128 t + p of the first argument, and (128 t + p, q) is where the block puts its entry
  (p, q) in the output: so the entry written at (i, j) is `kcomb` of |X_i|², |C_j|², ⟨X_i, C_j⟩ and L_j, which is
  the function `G` of the whole arguments at (i, j) — the same function whichever step wrote it.

  Row r of the output lies in the block of step r / 128 and in no other, and 8 · 128 = 1024: the eight blocks cover
  the output.  So after the last step the output array is `G` of the arguments; the arguments themselves are only read.
-/
import proofs.«121668_j4647154614792_2_alg».proof.Proof.Gen.KernelIdeal.Value
import proofs.«121668_j4647154614792_2_alg».proof.Proof.Payload
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.RbfValue

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-- The body reads and writes each block whole: from offsets (0, 0), which is the constant function 0. -/
theorem origin : (![0, 0] : Fin 2 → Nat) = fun _ => 0 := funext fun a => by fin_cases a <;> rfl

/-- The 1 × 1024 row the region finds is the vector of log-widths, relabelled. -/
theorem row_eq (c : Dev nD) :
    (V m c main_v0 : S1x1024.Idx → EReal)
      = shapeCast S1x1024 (m ((c : Thread nD τ).loc main_arg2)) shapeCasts_S1024_S1x1024 := by
  dsimp only [Gen.V, Gen.hostOps0]
  after_results
  rfl

/-- Which block of its array each step holds, per axis: the first argument's block moves down with the output's
    (the same row-block index, the only column-block 0); the second argument and the row of log-widths are one block
    each (index 0 on both axes); the output's block at step `t` is row-block `t`, the only column-block 0. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-! ## The entries of the arguments that block `t` reads -/

/-- Row p of the first argument's block at point `t` is row 128 t + p of the array: the row of the output entry. -/
theorem read_x (c : Dev nD) (t : Fin cfg0.N) (j : S128x1024.Idx) (k : Fin 256) :
    iblk m c 0 t (ix2 (j 0 : Fin 128) k)
      = m ((c : Thread nD τ).loc main_arg0) (ix2 ((((cfg0.win 3).blk t).view.emb j) 0 : Fin 1024) k) := by
  show V m c main_arg0 (((cfg0.win 0).blk t).view.emb (ix2 (j 0 : Fin 128) k)) = _
  rw [V_main_arg0]
  obtain ⟨e00, e01, -, -, -, -, -, -⟩ := index_facts t
  refine congrArg _ (funext fun a => Fin.ext ?_)
  match a with
  | ⟨0, _⟩ =>
    show win0_0.index t (0 : Fin 2) * 128 + 1 * (j 0).val = win0_3.index t (0 : Fin 2) * 128 + 1 * (j 0).val
    omega
  | ⟨1, _⟩ =>
    show win0_0.index t (1 : Fin 2) * 256 + 1 * k.val = k.val
    omega

/-- The second argument is staged whole: row q of its block is row q of the array, the column of the output entry. -/
theorem read_c (c : Dev nD) (t : Fin cfg0.N) (j : S128x1024.Idx) (k : Fin 256) :
    iblk m c 1 t (ix2 (j 1 : Fin 1024) k)
      = m ((c : Thread nD τ).loc main_arg1) (ix2 ((((cfg0.win 3).blk t).view.emb j) 1 : Fin 1024) k) := by
  show V m c main_arg1 (((cfg0.win 1).blk t).view.emb (ix2 (j 1 : Fin 1024) k)) = _
  rw [V_main_arg1]
  obtain ⟨-, -, e10, e11, -, -, e31, -⟩ := index_facts t
  refine congrArg _ (funext fun a => Fin.ext ?_)
  match a with
  | ⟨0, _⟩ =>
    show win0_1.index t (0 : Fin 2) * 1024 + 1 * (j 1).val = win0_3.index t (1 : Fin 2) * 1024 + 1 * (j 1).val
    omega
  | ⟨1, _⟩ =>
    show win0_1.index t (1 : Fin 2) * 256 + 1 * k.val = k.val
    omega

/-- The row of log-widths is staged whole: its entry q is entry q of the third argument. -/
theorem read_l (c : Dev nD) (t : Fin cfg0.N) (j : S128x1024.Idx) :
    iblk m c 2 t (ix2 (0 : Fin 1) (j 1 : Fin 1024))
      = m ((c : Thread nD τ).loc main_arg2) (ix1 ((((cfg0.win 3).blk t).view.emb j) 1 : Fin 1024)) := by
  show (V m c main_v0 : S1x1024.Idx → EReal) (((cfg0.win 2).blk t).view.emb (ix2 (0 : Fin 1) (j 1 : Fin 1024))) = _
  rw [row_eq]
  obtain ⟨-, -, -, -, e20, e21, e31, -⟩ := index_facts t
  have he : ((cfg0.win 2).blk t).view.emb (ix2 (0 : Fin 1) (j 1 : Fin 1024))
      = ix2 (0 : Fin 1) ((((cfg0.win 3).blk t).view.emb j) 1 : Fin 1024) := by
    refine funext fun a => Fin.ext ?_
    match a with
    | ⟨0, _⟩ =>
      show win0_2.index t (0 : Fin 2) * 1 + 1 * 0 = 0
      omega
    | ⟨1, _⟩ =>
      show win0_2.index t (1 : Fin 2) * 1024 + 1 * (j 1).val = win0_3.index t (1 : Fin 2) * 1024 + 1 * (j 1).val
      omega
  exact (congrArg (shapeCast S1x1024 (m ((c : Thread nD τ).loc main_arg2)) shapeCasts_S1024_S1x1024) he).trans
    (shapeCast_a_1a_apply _ shapeCasts_S1024_S1x1024 (0 : Fin 1) _)

/-! ## What point `t` writes back -/

/-- Entry j of the body's result on the blocks at point `t` is `G` of the whole arrays at the entry of the output
    array that block `t` puts j at. -/
theorem pay_eq_G (c : Dev nD) (t : Fin cfg0.N) (j : S128x1024.Idx) :
    k0_pay1 (iblk m c 0 t) (iblk m c 1 t) (iblk m c 2 t) j
      = Cert.Proof.Rbf.G (m ((c : Thread nD τ).loc main_arg0)) (m ((c : Thread nD τ).loc main_arg1))
          (m ((c : Thread nD τ).loc main_arg2)) (((cfg0.win 3).blk t).view.emb j) := by
  refine (Cert.KernelIdeal.Payload.pay_idx (iblk m c 0 t) (iblk m c 1 t) (iblk m c 2 t) j).trans ?_
  unfold Cert.Proof.Rbf.G
  simp only [read_x m c t j, read_c m c t j, read_l m c t j]

/-- Point `t` writes back block `t` of `G` of the argument arrays. -/
theorem flushed_eq (c : Dev nD) (t : Fin cfg0.N) :
    (dats m 0 c).flushed 3 t
      = ((cfg0.win 3).blk t).view.read (Elt Ideal)
          (Cert.Proof.Rbf.G (m ((c : Thread nD τ).loc main_arg0)) (m ((c : Thread nD τ).loc main_arg1))
            (m ((c : Thread nD τ).loc main_arg2))) := by
  rw [Value.flushed3]
  unfold out0_3
  rw [View.canon_unit_zero origin]
  simp only [View.ld_unit_zero (S := S128x256) origin, View.ld_unit_zero (S := S1024x256) origin,
    View.ld_unit_zero (S := S1x1024) origin]
  funext j
  exact pay_eq_G m c t j

/-! ## The eight blocks cover the array -/

/-- An entry of the output array is in block `t` iff each coordinate is in the block's range on its axis. -/
theorem mem_block (t : Fin cfg0.N) (i : S1024x1024.Idx) :
    i ∈ ((cfg0.win 3).blk t).view.set
      ↔ ∀ a : Fin 2, win0_3.index t a * S128x1024.size a ≤ (i a).val
          ∧ (i a).val < win0_3.index t a * S128x1024.size a + S128x1024.size a := by
  show i ∈ ((View.whole main_v1).slice (win0_3.rect t)).set ↔ _
  rw [View.set_slice_whole, Rect.mem_set_unit]
  exact Iff.rfl

/-- Block `t` is rows 128 t … 128 t + 127 and every column, so row r lies in block r / 128. -/
theorem cover (i : S1024x1024.Idx) :
    ∃ t : Fin cfg0.N, (cfg0.win 3).flush t = true ∧ i ∈ ((cfg0.win 3).blk t).view.set := by
  have hN : cfg0.N = 8 := N_0
  have hi0 : (i 0).val < 1024 := (i 0).isLt
  have hi1 : (i 1).val < 1024 := (i 1).isLt
  obtain ⟨t, ht⟩ : ∃ t : Fin cfg0.N, t.val = (i 0).val / 128 := ⟨⟨(i 0).val / 128, by rw [hN]; omega⟩, rfl⟩
  obtain ⟨-, -, -, -, -, -, e31, e30⟩ := index_facts t
  refine ⟨t, flush0_3 t, ?_⟩
  rw [mem_block]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 1024 ≤ (i 1).val ∧ (i 1).val < win0_3.index t (1 : Fin 2) * 1024 + 1024
    omega

/-! ## The output array after the run -/

/-- The output array ends holding `G` of the argument arrays. -/
theorem final (c : Dev nD) :
    (dats m 0 c).arrAt 3 cfg0.N
      = Cert.Proof.Rbf.G (m ((c : Thread nD τ).loc main_arg0)) (m ((c : Thread nD τ).loc main_arg1))
          (m ((c : Thread nD τ).loc main_arg2)) :=
  (dats m 0 c).arrAt_eq_of_cover 3 _ (fun t _ => flushed_eq m c t) cover

/-- The run, read: the output array is `G` of the arguments, and the arguments are as launched. -/
theorem run : θ_run defs (onTc (τ := τ) (main (F := Ideal))) ⟨m, fun _ => 0, ρ⟩ fun r => ∀ c : Dev nD,
      r.2.mem ((c : Thread nD τ).loc main_v1)
        = Cert.Proof.Rbf.G (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RbfValue

end
-- ==== Proof.lean ====
/-
  The two programs compute one function of finite inputs.

  Inputs: x and c, both 1024 × 256, and a vector l of 1024 log-widths.  Output entry (i, j):

    kernel      exp( max(|x_i|² + |c_j|² - 2⟨x_i, c_j⟩, 0) · (-1/2 · exp(-2 l_j)) ),
                computed on 8 row-blocks of 128 rows of x against the whole of c, the inner products by one block
                product, the squared norms by sums along the lanes;
    reference   exp( (-1/2 · d) · d )  with  d = sqrt(Σ_k (x_ik - c_jk)²) / exp(l_j).

  Over the reals the square expands to |x_i|² + |c_j|² - 2⟨x_i, c_j⟩, a sum of squares and so non-negative (the
  maximum with 0 does nothing and the root squares back), and (1 / exp l)² = exp(-2 l): Proof/Spec.lean.  The expansion
  is false at infinite entries, so the precondition is used: it says every entry of every input is a real number
  (Proof/FiniteInputs.lean).  The kernel's output array is that function of the arguments entry by entry
  (Proof/Payload.lean for one block, Proof/KernelValue.lean for the eight blocks that tile the array) and the
  reference's result is its own arrangement of it (Proof/RefValue.lean).  The idealization rewrote nothing, and each
  program leaves its arguments as it found them.
-/
import proofs.«121668_j4647154614792_2_alg».proof.Defs
import proofs.«121668_j4647154614792_2_alg».proof.Proof.Gen.Kernel
import proofs.«121668_j4647154614792_2_alg».proof.Proof.Gen.Kernel.Frame
import proofs.«121668_j4647154614792_2_alg».proof.Proof.Gen.KernelIdeal
import proofs.«121668_j4647154614792_2_alg».proof.Proof.Gen.KernelIdeal.Frame
import proofs.«121668_j4647154614792_2_alg».proof.Proof.Gen.KernelIdeal.Value
import proofs.«121668_j4647154614792_2_alg».proof.Proof.Gen.ReferenceIdeal
import proofs.«121668_j4647154614792_2_alg».proof.Proof.Gen.ReferenceIdeal.Run
import proofs.«121668_j4647154614792_2_alg».proof.Proof.Gen.ReferenceIdeal.Read
import proofs.«121668_j4647154614792_2_alg».proof.Proof.Gen.Pre_finite_inputs
import proofs.«121668_j4647154614792_2_alg».proof.Proof.FiniteInputs
import proofs.«121668_j4647154614792_2_alg».proof.Proof.Spec
import proofs.«121668_j4647154614792_2_alg».proof.Proof.RefValue
import proofs.«121668_j4647154614792_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its three arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten to read it over the extended reals: there is nothing to preserve. -/
theorem preserves : Cert.preserves_Kernel_KernelIdeal := trivial

/-- From memories that agree on the three arguments, all of whose entries are real, both programs end with the
    same array: the kernel's is `G` of the arguments, the reference's is `R` of them, and `R = G` on real entries. -/
theorem algebraic : Cert.algebraic_KernelIdeal_ReferenceIdeal := by
  intro m ρ m' ρ' hpre hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hC, hL⟩ := Cert.Proof.FiniteInputs.real_of_pre _ _ _ (hpre c)
  rw [Cert.ReferenceIdeal.Read.val_main_v15_eq, Cert.ReferenceIdeal.RefValue.val_eq_R, (hagree c).1, (hagree c).2.1,
    (hagree c).2.2]
  exact Cert.Proof.Rbf.R_eq_G _ _ _ hX hC hL

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
